-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x4096 : Shape := ⟨3, ![4096, 2, 4096]⟩
abbrev S16384x4096 : Shape := ⟨2, ![16384, 4096]⟩
abbrev S16384 : Shape := ⟨1, ![16384]⟩
abbrev S_ : Shape := ⟨0, ![]⟩

class Facts : Prop where
  bcast_S_S4096x2x4096 : S_.BroadcastsInDim S4096x2x4096 (![] : Fin 0 → Fin S4096x2x4096.rank)
  reducesTo_S4096x2x4096_S_d0_1_2 : S4096x2x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x2x4096 .f32) (main_arg1 : FVec F S16384x4096 .f32) (main_arg2 : FVec F S16384 .f32) : IVec S_ 1 :=
  let main_v0 : FVec F S4096x2x4096 .f32 := Host.absf main_arg0
  let main_cst : FVec F S_ .f32 := constant S_ .f32 0x7F800000#32
  let main_v1 : FVec F S4096x2x4096 .f32 := broadcastInDim S4096x2x4096 ![] bcast_S_S4096x2x4096 main_cst
  let main_v2 : IVec S4096x2x4096 1 := cmpf .olt main_v0 main_v1
  let main_c : IVec S_ 1 := constantI S_ 1 1#1
  let main_v3 : IVec S_ 1 := (fun x v => Host.reduce IntOp.andi x v reducesTo_S4096x2x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x2x4096 : Shape := ⟨3, ![4096, 2, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩
abbrev S4096x2x16384 : Shape := ⟨3, ![4096, 2, 16384]⟩

abbrev nBuf : Space → Nat
  | .hbm => 9
  | .vmem => 8
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S16384x4096, .bf16⟩
  | .hbm, ⟨6, _⟩ => ⟨S1x16384, .f32⟩
  | .hbm, ⟨7, _⟩ => ⟨S8192x16384, .f32⟩
  | .hbm, ⟨8, _⟩ => ⟨S4096x2x16384, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4096x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096x2x4096_S8192x4096 : S4096x2x4096.ShapeCasts S8192x4096
  bitsLt_bf16_f32 : FTy.bits .bf16 < FTy.bits .f32
  shapeCasts_S16384_S1x16384 : S16384.ShapeCasts S1x16384
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x2048_S1024x2048 : S1024x2048.ShapeCasts S1024x2048
  shapeCasts_S8192x16384_S4096x2x16384 : S8192x16384.ShapeCasts S4096x2x16384
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x16384.size a
  hwx0_3 : ∀ i : grid0.Coords, EltTy.bits .f32 = 32 ∨ (Rect.block (s := S8192x16384) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2x4096 : Shape := ⟨3, ![4096, 2, 4096]⟩
abbrev S16384x4096 : Shape := ⟨2, ![16384, 4096]⟩
abbrev S16384 : Shape := ⟨1, ![16384]⟩
abbrev S4096x2x16384 : Shape := ⟨3, ![4096, 2, 16384]⟩
abbrev S1x1x16384 : Shape := ⟨3, ![1, 1, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S4096x2x16384, .f32⟩
  | .hbm, ⟨4, _⟩ => ⟨S1x1x16384, .f32⟩
  | .hbm, ⟨5, _⟩ => ⟨S4096x2x16384, .f32⟩
  | .hbm, ⟨6, _⟩ => ⟨S4096x2x16384, .f32⟩
  | _, _ => ⟨S4096x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4096x2x16384_0_1_2 : S1x1x16384.BroadcastsInDim S4096x2x16384 (![0, 1, 2] : Fin 3 → Fin S4096x2x16384.rank)
  dot_S4096x2x4096_S16384x4096_S4096x2x16384_2_1_01_0_n_n_wf : DotDims.WF S4096x2x4096 S16384x4096 S4096x2x16384 [2] [1] [0, 1] [0] [] []

variable [Facts₀]

def dot_S4096x2x4096_S16384x4096_S4096x2x16384_2_1_01_0_n_n : DotDims S4096x2x4096 S16384x4096 S4096x2x16384 where
  lhsContracting := [2]
  rhsContracting := [1]
  lhsNonContracting := [0, 1]
  rhsNonContracting := [0]
  lhsBatch := []
  rhsBatch := []
  wf := dot_S4096x2x4096_S16384x4096_S4096x2x16384_2_1_01_0_n_n_wf

class Facts : Prop extends Facts₀ where

variable [Facts]
-- ==== Proof.RefValue.lean ====
/-
  The reference at an index: `einsum('sbh,fh->sbf', x, w) + bias` read at `(s, b, f)` over the extended reals is
  `(∑ₕ x s b h · w f h) + bias f` — the contraction over the last axis of both operands, and the bias of the
  output's last coordinate (the two broadcasts that shape the bias like the product only copy it).
-/
import proofs.«132026_j44856638439890_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The reference's result at `(s, b, f)`. -/
theorem result_apply (x0 : (⟨S4096x2x4096, .f32⟩ : BufTy).Contents (Elt Ideal)) (x1 : (⟨S16384x4096, .f32⟩ : BufTy).Contents (Elt Ideal))
    (x2 : (⟨S16384, .f32⟩ : BufTy).Contents (Elt Ideal)) (s : Fin 4096) (b : Fin 2) (f : Fin 16384) :
    val_main_v3 (F := Ideal) x0 x1 x2 (ix3 s b f) = (∑ k : Fin 4096, x0 (ix3 s b k) * x1 (ix2 f k)) + x2 (ix1 f) := by
  have e0 : ∀ k : Fin 4096, lidx_main_v0 (ix3 s b f) k = ix3 s b k := fun k => funext fun a => Fin.ext (by
    match a with
    | ⟨0, _⟩ => rfl
    | ⟨1, _⟩ => rfl
    | ⟨2, _⟩ => rfl)
  have e1 : ∀ k : Fin 4096, ridx_main_v0 (ix3 s b f) k = ix2 f k := fun k => funext fun a => Fin.ext (by
    match a with
    | ⟨0, _⟩ => rfl
    | ⟨1, _⟩ => rfl)
  have e2 : idx_main_v1 (idx_main_v2 (ix3 s b f)) = ix1 f := funext fun a => Fin.ext (by
    match a with
    | ⟨0, _⟩ => rfl)
  rw [val_main_v3_apply, val_main_v0_apply, val_main_v2_apply, val_main_v1_apply, e2]
  simp only [e0, e1]
  rfl

end Cert.ReferenceIdeal.RefValue

end
-- ==== Proof.Blocks.lean ====
/-
  The arithmetic of a contraction cut into blocks.

  A sum over 4096 terms is the sum, over four consecutive blocks, of the sums over each block's 1024 terms:
  the terms are grouped, none is moved past an operation other than `+`, so the identity holds in every
  commutative additive monoid — in particular on the extended reals, where no term need be finite.

  The terms of the product `A · Wᵀ` at row `r` and column `f` are extended to every natural number (zero past
  the contraction length) so that a block's share can be named by its offset without carrying a bound.
-/
import Idealize.ShloMosaic.PureOps.Ideal
import Idealize.ShloMosaic.Lib.ValueIdx

noncomputable section

namespace Cert.Gemm

open Finset Idealize.ShloMosaic Idealize.ShloMosaic.ValueIdx

/-- `S` consecutive blocks of `K` terms each are the first `K * S` terms. -/
theorem sum_blocks {β : Type*} [AddCommMonoid β] (K : ℕ) (f : ℕ → β) :
    ∀ S : ℕ, ∑ s ∈ range S, ∑ k ∈ range K, f (K * s + k) = ∑ x ∈ range (K * S), f x
  | 0 => by simp
  | S + 1 => by rw [sum_range_succ, sum_blocks K f S, Nat.mul_succ, sum_range_add]

/-- Four blocks of 1024 terms are the 4096 terms. -/
theorem sum_four_blocks {β : Type*} [AddCommMonoid β] (f : ℕ → β) :
    ∑ s ∈ range 4, ∑ k : Fin 1024, f (1024 * s + k.val) = ∑ x : Fin 4096, f x.val := by
  rw [Fin.sum_univ_eq_sum_range (fun x => f x) 4096, ← sum_blocks 1024 f 4]
  exact sum_congr rfl fun s _ => Fin.sum_univ_eq_sum_range (fun k => f (1024 * s + k)) 1024

/-- The product's term number `x` at row `r` of `A` and row `f` of `W` (the contraction runs along the rows of
    both): `A r x · W f x`, and zero past the contraction length. -/
def term (A : (⟨2, ![8192, 4096]⟩ : Shape).Idx → EReal) (W : (⟨2, ![16384, 4096]⟩ : Shape).Idx → EReal)
    (r : Fin 8192) (f : Fin 16384) (x : ℕ) : EReal :=
  if h : x < 4096 then A (ix2 r ⟨x, h⟩) * W (ix2 f ⟨x, h⟩) else 0

theorem term_of_lt (A : (⟨2, ![8192, 4096]⟩ : Shape).Idx → EReal) (W : (⟨2, ![16384, 4096]⟩ : Shape).Idx → EReal)
    (r : Fin 8192) (f : Fin 16384) (x : ℕ) (h : x < 4096) :
    term A W r f x = A (ix2 r ⟨x, h⟩) * W (ix2 f ⟨x, h⟩) := dif_pos h

/-- Over the contraction's own indices the extended terms are the products. -/
theorem sum_term (A : (⟨2, ![8192, 4096]⟩ : Shape).Idx → EReal) (W : (⟨2, ![16384, 4096]⟩ : Shape).Idx → EReal)
    (r : Fin 8192) (f : Fin 16384) :
    ∑ x : Fin 4096, term A W r f x.val = ∑ x : Fin 4096, A (ix2 r x) * W (ix2 f x) :=
  sum_congr rfl fun x _ => term_of_lt A W r f x.val x.isLt

/-- The bias plus the four blocks' partial products is the bias plus the whole product. -/
theorem blocks_eq_whole (A : (⟨2, ![8192, 4096]⟩ : Shape).Idx → EReal) (W : (⟨2, ![16384, 4096]⟩ : Shape).Idx → EReal)
    (b : EReal) (r : Fin 8192) (f : Fin 16384) :
    b + ∑ s ∈ range 4, ∑ k : Fin 1024, term A W r f (1024 * s + k.val)
      = b + ∑ x : Fin 4096, A (ix2 r x) * W (ix2 f x) := by
  rw [sum_four_blocks (term A W r f), sum_term]

end Cert.Gemm

end
-- ==== Proof.Payload.lean ====
/-
  The body's two stored values, read at an index over the extended reals.

  The seed (first contraction block only) stores the bias row under every one of the block's 1024 rows.
  The accumulation stores, at row `p` and column `q` of the output block, what the block held there plus
  the partial product `∑ₖ a p k · w q k` over the 1024 contraction indices of the two loaded blocks — the
  product contracts the LAST axis of both operands, and it is accumulated into a zero block, which adds nothing.
-/
import proofs.«132026_j44856638439890_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The seed at `(p, q)` is the bias row at `q`, whatever the row `p`. -/
theorem seed_apply (v : Vec Ideal S1x2048 .f32) (p : Fin 1024) (q : Fin 2048) :
    k0_pay1 (F := Ideal) v (ix2 p q) = v (ix2 (0 : Fin 1) q) := by
  unfold k0_pay1
  rw [shapeCast_self, shapeCast_self]
  exact broadcastTo_1b_ab_apply v _ p q

/-- The block product's record: rows of the left block against rows of the right block, along their last axes. -/
local notation "D" => dot_S1024x1024_S2048x1024_S1024x2048_1_1_0_0_n_n

theorem lhs_row (i : S1024x2048.Idx) (z : (D).contr.Idx) : ((D).lhsIdx i z 0).val = (i 0).val := by
  unfold DotDims.lhsIdx
  rw [dif_neg (show ¬(0 : Fin S1024x1024.rank) ∈ (D).lhsBatch by decide),
    dif_pos (show (0 : Fin S1024x1024.rank) ∈ (D).lhsNonContracting by decide)]
  rfl
theorem lhs_contr (i : S1024x2048.Idx) (z : (D).contr.Idx) : ((D).lhsIdx i z 1).val = (z ⟨0, by decide⟩).val :=
  (D).lhsIdx_val_of_single rfl i z
theorem rhs_row (i : S1024x2048.Idx) (z : (D).contr.Idx) : ((D).rhsIdx i z 0).val = (i 1).val := by
  unfold DotDims.rhsIdx
  rw [dif_neg (show ¬(0 : Fin S2048x1024.rank) ∈ (D).rhsBatch by decide),
    dif_pos (show (0 : Fin S2048x1024.rank) ∈ (D).rhsNonContracting by decide)]
  rfl
theorem rhs_contr (i : S1024x2048.Idx) (z : (D).contr.Idx) : ((D).rhsIdx i z 1).val = (z ⟨0, by decide⟩).val :=
  (D).rhsIdx_val_of_single rfl i z

/-- The block product into the zero block, at `(p, q)`: the sum over the contraction index of the products of
    row `p` of the left block and row `q` of the right block. -/
theorem product_apply (a : FVec Ideal S1024x1024 .bf16) (w : FVec Ideal S2048x1024 .bf16) (p : Fin 1024) (q : Fin 2048) :
    FloatOps.matmul (φ₁ := .bf16) (φ₂ := .bf16) (D) none a w (constant (F := Ideal) S1024x2048 .f32 0x00000000#32) (ix2 p q)
      = ∑ k : Fin 1024, a (ix2 p k) * w (ix2 q k) := by
  rw [Ideal.matmul_constant_zero_apply, ← Equiv.sum_comp (contrEquiv1 (D) 1024 rfl rfl).symm]
  refine Finset.sum_congr rfl fun k _ => ?_
  have hk := contrEquiv1_symm_val (D) 1024 rfl rfl k
  have el : (D).lhsIdx (ix2 p q) ((contrEquiv1 (D) 1024 rfl rfl).symm k) = ix2 p k := funext fun b => Fin.ext (by
    match b with
    | ⟨0, _⟩ => exact lhs_row _ _
    | ⟨1, _⟩ => exact (lhs_contr _ _).trans hk)
  have er : (D).rhsIdx (ix2 p q) ((contrEquiv1 (D) 1024 rfl rfl).symm k) = ix2 q k := funext fun b => Fin.ext (by
    match b with
    | ⟨0, _⟩ => exact rhs_row _ _
    | ⟨1, _⟩ => exact (rhs_contr _ _).trans hk)
  rw [el, er]

/-- The accumulation at `(p, q)`: what the output block held there plus the blocks' partial product. -/
theorem accumulate_apply (a : Vec Ideal S1024x1024 .bf16) (w : Vec Ideal S2048x1024 .bf16) (o : Vec Ideal S1024x2048 .f32)
    (p : Fin 1024) (q : Fin 2048) :
    k0_pay2 (F := Ideal) a w o (ix2 p q) = o (ix2 p q) + ∑ k : Fin 1024, a (ix2 p k) * w (ix2 q k) := by
  unfold k0_pay2
  rw [shapeCast_self, shapeCast_self, shapeCast_self]
  exact congrArg (o (ix2 p q) + ·) (product_apply a w p q)

end Cert.KernelIdeal.Payload

end
-- ==== Proof.Pieces.lean ====
/-
  What one call of the body leaves in the output block's buffer, in each of its two cases, as a value.

  At the first contraction block the body stores the seed (the bias row under every row), reads it back, and
  stores the accumulation over it; at the later contraction blocks it stores the accumulation over what the
  buffer held. Every load and store covers its whole buffer, so the last store's value is what remains.
-/
import proofs.«132026_j44856638439890_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later contraction block: the accumulation over what the buffer held. -/
theorem left_later (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc : ¬cond0_0 i)
    (x0 : Vec F S1024x1024 .bf16) (x1 : Vec F S2048x1024 .bf16) (x2 : Vec F S1x2048 .f32) (xo : Vec F S1024x2048 .f32) :
    out0_B_3 c i a3 h3 a4 h4 a5 h5 a6 h6 hc x0 x1 x2 xo = k0_pay2 x0 x1 xo := by
  unfold out0_B_3
  rw [View.read_writes_eq_canon _ _ _ (cover0_B_3 c i a3 h3 a4 h4 a5 h5 a6 h6 hc x0 x1 x2 xo)]
  unfold kernelRun0_B
  dsimp only
  rw [View.canon_unit_zero hz]
  simp only [View.readAt_eq_ld, h3.read_unread, h4.read_unread, h6.read_unread, View.ld_unit_zero (S := S1024x1024) hz,
    View.ld_unit_zero (S := S2048x1024) hz, View.ld_unit_zero (S := S1024x2048) hz]

/-- The first contraction block: the accumulation over the seed. -/
theorem left_first (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc : cond0_0 i)
    (x0 : Vec F S1024x1024 .bf16) (x1 : Vec F S2048x1024 .bf16) (x2 : Vec F S1x2048 .f32) :
    out0_A_3 c i a3 h3 a4 h4 a5 h5 a6 h6 hc x0 x1 x2 = k0_pay2 x0 x1 (k0_pay1 x2) := by
  unfold out0_A_3
  rw [View.read_writes_eq_canon _ _ _ (cover0_A_3 c i a3 h3 a4 h4 a5 h5 a6 h6 hc x0 x1 x2)]
  unfold kernelRun0_A
  dsimp only
  sl_unfold_words
  rw [View.canon_cons_unit_zero (S := S1024x2048) hz, View.readCov_unit_zero (S := S1024x2048) _ hz]
  simp only [View.readAt_eq_ld, h3.read_unread, h4.read_unread, h5.read_unread, View.ld_unit_zero (S := S1024x1024) hz,
    View.ld_unit_zero (S := S2048x1024) hz, View.ld_unit_zero (S := S1x2048) hz]

end Cert.KernelIdeal.Pieces

end
-- ==== Proof.Arrays.lean ====
/-
  The arrays the launch works on, and each window's block at a grid point.

  Before the launch the program flattens the input's two leading axes (row `2 s + b` of the flat array is the
  input's `(s, b)`), changes the float format of the flat input and of the weight (no change over the extended
  reals), and gives the bias a leading unit axis. The grid has 8 × 8 × 4 points, the contraction axis innermost: point
  `t` is row block `t / 32`, column block `t / 4 % 8`, contraction block `t % 4`. At point `t` the left window
  holds rows `1024 (t / 32) + ·` and contraction indices `1024 (t % 4) + ·` of the flat input, the right window rows
  `2048 (t / 4 % 8) + ·` and the same contraction indices of the weight, the bias window columns
  `2048 (t / 4 % 8) + ·` of the bias row.
-/
import proofs.«132026_j44856638439890_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Arrays

open Cert.KernelIdeal Cert.KernelIdeal.Gen Idealize.ShloMosaic.ValueIdx

variable {F : FTy → Type} [FloatOps F]
variable (m : (ℓ : Loc nD τ sig) → Buf (Elt F) ℓ)

/-! ## The arrays as the launch finds them -/

/-- The left operand: the input, flattened, in the narrower format. -/
theorem found_left (c : Dev nD) : (V m c main_v1 : S8192x4096.Idx → Elt F .bf16)
    = truncf .bf16 (shapeCast S8192x4096 (m ((c : Thread nD τ).loc main_arg0)) shapeCasts_S4096x2x4096_S8192x4096) bitsLt_bf16_f32 := by
  show StableHlo.after hostOps0 (fun b => m (c, b)) (Proc.devRef .tc main_v1) = _
  after_results
  rfl

/-- The right operand: the weight in the narrower format. -/
theorem found_right (c : Dev nD) : (V m c main_v2 : S16384x4096.Idx → Elt F .bf16)
    = truncf .bf16 (m ((c : Thread nD τ).loc main_arg1)) bitsLt_bf16_f32 := by
  show StableHlo.after hostOps0 (fun b => m (c, b)) (Proc.devRef .tc main_v2) = _
  after_results

/-- The bias as one row. -/
theorem found_bias (c : Dev nD) : (V m c main_v3 : S1x16384.Idx → Elt F .f32)
    = shapeCast S1x16384 (m ((c : Thread nD τ).loc main_arg2)) shapeCasts_S16384_S1x16384 := by
  show StableHlo.after hostOps0 (fun b => m (c, b)) (Proc.devRef .tc main_v3) = _
  after_results
  rfl

/-! ## The index maps over the grid -/

theorem points : cfg0.N = 256 := N_0

theorem at_left : ∀ t : Fin cfg0.N, win0_0.index t (0 : Fin 2) = t.val / 32 ∧ win0_0.index t (1 : Fin 2) = t.val % 4 :=
  (by decide +kernel : ∀ t : Fin grid0.N, _)
theorem at_right : ∀ t : Fin cfg0.N, win0_1.index t (0 : Fin 2) = t.val / 4 % 8 ∧ win0_1.index t (1 : Fin 2) = t.val % 4 :=
  (by decide +kernel : ∀ t : Fin grid0.N, _)
theorem at_bias : ∀ t : Fin cfg0.N, win0_2.index t (0 : Fin 2) = 0 ∧ win0_2.index t (1 : Fin 2) = t.val / 4 % 8 :=
  (by decide +kernel : ∀ t : Fin grid0.N, _)
theorem at_out : ∀ t : Fin cfg0.N, win0_3.index t (0 : Fin 2) = t.val / 32 ∧ win0_3.index t (1 : Fin 2) = t.val / 4 % 8 :=
  (by decide +kernel : ∀ t : Fin grid0.N, _)

/-! ## The blocks -/

/-- The left window's block at point `t`, at `(p, k)`: the flat input at row `1024 (t / 32) + p`, contraction index
    `1024 (t % 4) + k`. -/
theorem left_block (c : Dev nD) (t : Fin cfg0.N) (p k : Fin 1024) (r : Fin 8192) (x : Fin 4096)
    (hr : r.val = 1024 * (t.val / 32) + p.val) (hx : x.val = 1024 * (t.val % 4) + k.val) :
    (iblk m c 0 t : Vec F S1024x1024 .bf16) (ix2 p k) = (V m c main_v1 : S8192x4096.Idx → Elt F .bf16) (ix2 r x) := by
  obtain ⟨e0, e1⟩ := at_left t
  unfold iblk
  rw [View.read_apply]
  show V m c main_v1 (((cfg0.win 0).blk t).view.emb (ix2 p k)) = V m c main_v1 (ix2 r x)
  refine congrArg (V m c main_v1) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = x.val; rw [e1, hx]; omega

/-- The right window's block at point `t`, at `(q, k)`: the weight at row `2048 (t / 4 % 8) + q`, contraction index
    `1024 (t % 4) + k`. -/
theorem right_block (c : Dev nD) (t : Fin cfg0.N) (q : Fin 2048) (k : Fin 1024) (f : Fin 16384) (x : Fin 4096)
    (hf : f.val = 2048 * (t.val / 4 % 8) + q.val) (hx : x.val = 1024 * (t.val % 4) + k.val) :
    (iblk m c 1 t : Vec F S2048x1024 .bf16) (ix2 q k) = (V m c main_v2 : S16384x4096.Idx → Elt F .bf16) (ix2 f x) := by
  obtain ⟨e0, e1⟩ := at_right t
  unfold iblk
  rw [View.read_apply]
  show V m c main_v2 (((cfg0.win 1).blk t).view.emb (ix2 q k)) = V m c main_v2 (ix2 f x)
  refine congrArg (V m c main_v2) (funext fun a => Fin.ext ?_)
  match a with
  | ⟨0, _⟩ => show win0_1.index t (0 : Fin 2) * 2048 + 1 * q.val = f.val; rw [e0, hf]; omega
  | ⟨1, _⟩ => show win0_1.index t (1 : Fin 2) * 1024 + 1 * k.val = x.val; rw [e1, hx]; omega

/-- The bias window's block at point `t`, at `(0, q)`: the bias row at column `2048 (t / 4 % 8) + q`. -/
theorem bias_block (c : Dev nD) (t : Fin cfg0.N) (q : Fin 2048) (f : Fin 16384)
    (hf : f.val = 2048 * (t.val / 4 % 8) + q.val) :
    (iblk m c 2 t : Vec F S1x2048 .f32) (ix2 (0 : Fin 1) q) = (V m c main_v3 : S1x16384.Idx → Elt F .f32) (ix2 (0 : Fin 1) f) := by
  obtain ⟨e0, e1⟩ := at_bias t
  unfold iblk
  rw [View.read_apply]
  show V m c main_v3 (((cfg0.win 2).blk t).view.emb (ix2 (0 : Fin 1) q)) = V m c main_v3 (ix2 (0 : Fin 1) f)
  refine congrArg (V m c main_v3) (funext fun a => Fin.ext ?_)
  match a with
  | ⟨0, _⟩ => show win0_2.index t (0 : Fin 2) * 1 + 1 * 0 = 0; rw [e0]
  | ⟨1, _⟩ => show win0_2.index t (1 : Fin 2) * 2048 + 1 * q.val = f.val; rw [e1, hf]; omega

end Cert.KernelIdeal.Arrays

end
-- ==== Proof.Accumulate.lean ====
/-
  What the output block's buffer holds after each grid point, over the extended reals.

  The contraction axis is innermost on the grid, so the four points `4 g, …, 4 g + 3` work on one output block:
  the first seeds it with the bias and adds the first contraction block's partial product, each later one adds its
  own. After point `n` the buffer therefore holds, at `(p, q)`, the bias of the block's column plus the partial
  products of contraction blocks `0 … n % 4` — proved by induction on the point, one step per case of the body.
-/
import proofs.«132026_j44856638439890_2_alg».proof.Proof.Blocks
import proofs.«132026_j44856638439890_2_alg».proof.Proof.Payload
import proofs.«132026_j44856638439890_2_alg».proof.Proof.Pieces
import proofs.«132026_j44856638439890_2_alg».proof.Proof.Arrays

noncomputable section

open Idealize.ShloMosaic Idealize.ShloMosaic.TcCoe Idealize.SL.Sem

namespace Cert.KernelIdeal.Accumulate

open Cert.KernelIdeal Cert.KernelIdeal.Gen Idealize.ShloMosaic.ValueIdx Finset Cert.Gemm
open Cert.KernelIdeal.Arrays Cert.KernelIdeal.Payload Cert.KernelIdeal.Pieces

variable (m : (ℓ : Loc nD τ sig) → Buf (Elt Ideal) ℓ)

/-- The flat input's row under row `p` of point `n`'s output block, -/
def row (n : ℕ) (h : n < 256) (p : Fin 1024) : Fin 8192 := ⟨1024 * (n / 32) + p.val, by omega⟩
/-- and the weight's row (the output's column) under column `q` of it. -/
def col (n : ℕ) (h : n < 256) (q : Fin 2048) : Fin 16384 := ⟨2048 * (n / 4 % 8) + q.val, by omega⟩

/-- The three arrays the launch works on, as extended reals. -/
abbrev left (c : Dev nD) : (⟨2, ![8192, 4096]⟩ : Shape).Idx → EReal := V m c main_v1
abbrev right (c : Dev nD) : (⟨2, ![16384, 4096]⟩ : Shape).Idx → EReal := V m c main_v2
abbrev bias (c : Dev nD) : (⟨2, ![1, 16384]⟩ : Shape).Idx → EReal := V m c main_v3

/-- Point `t`'s partial product at `(p, q)` is contraction block `t % 4`'s share of the whole product's terms
    (`a`, `w`: the two windows' blocks at the point). -/
theorem partial_eq (c : Dev nD) (t : Fin cfg0.N) (ht : t.val < 256) (p : Fin 1024) (q : Fin 2048)
    (a : Vec Ideal S1024x1024 .bf16) (w : Vec Ideal S2048x1024 .bf16) (ha : a = iblk m c 0 t) (hw : w = iblk m c 1 t) :
    ∑ k : Fin 1024, a (ix2 p k) * w (ix2 q k)
      = ∑ k : Fin 1024, term (left m c) (right m c) (row t.val ht p) (col t.val ht q) (1024 * (t.val % 4) + k.val) := by
  refine sum_congr rfl fun k _ => ?_
  have hx : 1024 * (t.val % 4) + k.val < 4096 := by have := k.isLt; omega
  rw [term_of_lt _ _ _ _ _ hx]
  exact congrArg₂ (· * ·)
    ((congrFun ha _).trans (left_block m c t p k (row t.val ht p) ⟨1024 * (t.val % 4) + k.val, hx⟩ rfl rfl))
    ((congrFun hw _).trans (right_block m c t q k (col t.val ht q) ⟨1024 * (t.val % 4) + k.val, hx⟩ rfl rfl))

/-- The seed at `(p, q)` of point `t` is the bias of the block's column (`b`: the bias window's block at the point). -/
theorem seed_eq (c : Dev nD) (t : Fin cfg0.N) (ht : t.val < 256) (p : Fin 1024) (q : Fin 2048)
    (b : Vec Ideal S1x2048 .f32) (hb : b = iblk m c 2 t) :
    k0_pay1 (F := Ideal) b (ix2 p q) = bias m c (ix2 (0 : Fin 1) (col t.val ht q)) :=
  (seed_apply b p q).trans ((congrFun hb _).trans (bias_block m c t q (col t.val ht q) rfl))

/-- After point `n` the output block's buffer holds the bias plus the partial products of contraction blocks
    `0 … n % 4`. -/
theorem after_point (c : Dev nD) : ∀ (n : ℕ) (h : n < cfg0.N) (p : Fin 1024) (q : Fin 2048),
    (outsAt0 m c n h : Vec Ideal S1024x2048 .f32) (ix2 p q)
      = bias m c (ix2 (0 : Fin 1) (col n (lt_of_lt_of_eq h points) q))
        + ∑ s ∈ range (n % 4 + 1), ∑ k : Fin 1024,
            term (left m c) (right m c) (row n (lt_of_lt_of_eq h points) p) (col n (lt_of_lt_of_eq h points) q) (1024 * s + k.val)
  | 0, h, p, q => by
    have hN : (0 : ℕ) < 256 := lt_of_lt_of_eq h points
    rw [outsAt0_A m c ⟨0, h⟩ rfl, left_first]
    refine (accumulate_apply _ _ _ p q).trans ?_
    refine (congrArg₂ (· + ·) (seed_eq m c ⟨0, h⟩ hN p q _ rfl) (partial_eq m c ⟨0, h⟩ hN p q _ _ rfl rfl)).trans ?_
    show _ = _ + ∑ s ∈ range 1, _
    rw [sum_range_one]
    rfl
  | n + 1, h, p, q => by
    have hN : n + 1 < 256 := lt_of_lt_of_eq h points
    by_cases h0 : (n + 1) % 4 = 0
    · rw [outsAt0_A m c ⟨n + 1, h⟩ h0, left_first]
      refine (accumulate_apply _ _ _ p q).trans ?_
      refine (congrArg₂ (· + ·) (seed_eq m c ⟨n + 1, h⟩ hN p q _ rfl) (partial_eq m c ⟨n + 1, h⟩ hN p q _ _ rfl rfl)).trans ?_
      show _ + ∑ k : Fin 1024, term _ _ _ _ (1024 * ((n + 1) % 4) + k.val) = _ + ∑ s ∈ range ((n + 1) % 4 + 1), _
      rw [h0, sum_range_one]
    · rw [outsAt0_B m c ⟨n + 1, h⟩ h0, left_later]
      refine (accumulate_apply _ _ _ p q).trans ?_
      refine (congrArg₂ (· + ·) (after_point c n (Nat.lt_of_succ_lt h) p q) (partial_eq m c ⟨n + 1, h⟩ hN p q _ _ rfl rfl)).trans ?_
      have er : row n (lt_of_lt_of_eq (Nat.lt_of_succ_lt h) points) p = row (n + 1) hN p := Fin.ext (by
        show 1024 * (n / 32) + p.val = 1024 * ((n + 1) / 32) + p.val; omega)
      have ec : col n (lt_of_lt_of_eq (Nat.lt_of_succ_lt h) points) q = col (n + 1) hN q := Fin.ext (by
        show 2048 * (n / 4 % 8) + q.val = 2048 * ((n + 1) / 4 % 8) + q.val; omega)
      have em : (n + 1) % 4 = n % 4 + 1 := by omega
      show (_ + _) + ∑ k : Fin 1024, term _ _ (row (n + 1) hN p) (col (n + 1) hN q) (1024 * ((n + 1) % 4) + k.val)
        = _ + ∑ s ∈ range ((n + 1) % 4 + 1), _
      rw [er, ec, em, sum_range_succ _ (n % 4 + 1)]
      exact add_assoc _ _ _

end Cert.KernelIdeal.Accumulate

end
-- ==== Proof.Result.lean ====
/-
  The result array, over the extended reals.

  The last of an output block's four points (`t % 4 = 3`) is the one that writes the block back; by then the buffer
  holds the bias plus all four contraction blocks' partial products, which is the bias plus the whole contraction
  (a regrouping of one sum). The 8 × 8 output blocks tile the launch's result, so it ends as ONE function of the
  three arrays the launch works on; the program's last line regroups its rows `2 s + b` as `(s, b)`.
-/
import proofs.«132026_j44856638439890_2_alg».proof.Proof.Accumulate

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Finset Cert.Gemm
open Cert.KernelIdeal.Arrays Cert.KernelIdeal.Accumulate

variable (m : (ℓ : Loc nD τ sig) → Buf (Elt Ideal) ℓ) (ρ : Dev nD → PrngReg)

/-- The launch's result as one function of its arrays: at `(r, f)` the bias at `f` plus `∑ₓ A r x · W f x`. -/
def whole (A : (⟨2, ![8192, 4096]⟩ : Shape).Idx → EReal) (W : (⟨2, ![16384, 4096]⟩ : Shape).Idx → EReal)
    (B : (⟨2, ![1, 16384]⟩ : Shape).Idx → EReal) : (⟨2, ![8192, 16384]⟩ : Shape).Idx → EReal :=
  fun i => B (ix2 (0 : Fin 1) (i 1)) + ∑ x : Fin 4096, A (ix2 (i 0) x) * W (ix2 (i 1) x)

/-- At a writing point, the buffer at `j` is the whole function at `j`'s place in the array. -/
theorem block_value (c : Dev nD) (t : Fin cfg0.N) (h3 : t.val % 4 = 3) (j : S1024x2048.Idx) :
    (outsAt0 m c t.val t.isLt : Vec Ideal S1024x2048 .f32) j
      = whole (left m c) (right m c) (bias m c) (((cfg0.win 3).blk t).view.emb j) := by
  have hN : t.val < 256 := lt_of_lt_of_eq t.isLt points
  obtain ⟨e0, e1⟩ := at_out t
  obtain ⟨p, q, rfl⟩ : ∃ (p : Fin 1024) (q : Fin 2048), j = ix2 p q := ⟨j 0, j 1, eq_ix2 j⟩
  have hemb : ((cfg0.win 3).blk t).view.emb (ix2 p q) = ix2 (row t.val hN p) (col t.val hN q) := funext fun a => Fin.ext (by
    match a with
    | ⟨0, _⟩ => show win0_3.index t (0 : Fin 2) * 1024 + 1 * p.val = 1024 * (t.val / 32) + p.val; rw [e0]; omega
    | ⟨1, _⟩ => show win0_3.index t (1 : Fin 2) * 2048 + 1 * q.val = 2048 * (t.val / 4 % 8) + q.val; rw [e1]; omega)
  rw [after_point m c t.val t.isLt p q, h3, hemb]
  exact blocks_eq_whole _ _ _ _ _

/-- What a writing point writes back is its block of the whole function. -/
theorem flushed_eq (c : Dev nD) (t : Fin cfg0.N) (hf : (cfg0.win 3).flush t = true) :
    (dats m 0 c).flushed 3 t = ((cfg0.win 3).blk t).view.read (Elt Ideal) (whole (left m c) (right m c) (bias m c)) := by
  have h3 : t.val % 4 = 3 := (flush0_3 t).mp hf
  show (cfg0.win 3).cut (grid0.coords t) ((dats m 0 c).after 3 t) = _
  rw [after0_3]
  funext j
  rw [View.read_apply]
  exact block_value m c t h3 j

/-- An index of the result is in point `t`'s block iff each coordinate is in the block's range. -/
theorem mem_block (t : Fin cfg0.N) (i : S8192x16384.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v4).slice (win0_3.rect t)).set ↔ _
  rw [View.set_slice_whole, Rect.mem_set_unit]
  exact Iff.rfl

/-- Every index of the result is in the block of a writing point: row `r` and column `f` lie in output block
    `(r / 1024, f / 2048)`, written back at its last contraction block. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hn : 32 * ((i 0).val / 1024) + 4 * ((i 1).val / 2048) + 3 < cfg0.N := lt_of_lt_of_eq (by omega) points.symm
  obtain ⟨e0, e1⟩ := at_out ⟨32 * ((i 0).val / 1024) + 4 * ((i 1).val / 2048) + 3, hn⟩
  refine ⟨⟨32 * ((i 0).val / 1024) + 4 * ((i 1).val / 2048) + 3, hn⟩, (flush0_3 _).mpr (by
    show (32 * ((i 0).val / 1024) + 4 * ((i 1).val / 2048) + 3) % 4 = 3; omega), ?_⟩
  rw [mem_block]
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 2048 ≤ (i 1).val ∧ (i 1).val < win0_3.index _ (1 : Fin 2) * 2048 + 2048
    rw [e1]; dsimp only; omega

/-- So the launch's result ends as the whole function of the arrays it works on. -/
theorem final (c : Dev nD) : (dats m 0 c).arrAt 3 cfg0.N = whole (left m c) (right m c) (bias m c) :=
  (dats m 0 c).arrAt_eq_of_cover 3 (whole (left m c) (right m c) (bias m c)) (flushed_eq m c) covered

/-- The program's result: the launch's, its rows regrouped. -/
theorem tail_eq (c : Dev nD) : Pipeline.afterTail₀ cfgs (dats m) 0 (V0 m) [hostOps1] c main_v5
    = shapeCast S4096x2x16384 (whole (left m c) (right m c) (bias m c)) shapeCasts_S8192x16384_S4096x2x16384 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = whole (left m c) (right m c) (bias m c) :=
    (Pipeline.withArrays_arr spec0 launch0.win.arr_inj c (V0 m c) (fun w => (dats m 0 c).arrAt w cfg0.N) 3).trans (final m c)
  rw [e]
  rfl

/-- The run, read: every weakly fair execution ends with the program's result at the regrouped whole function and the
    arguments as they were. -/
theorem run : θ_run defs (onTc (τ := τ) (main (F := Ideal))) ⟨m, fun _ => 0, ρ⟩ fun r => ∀ c : Dev nD,
      r.2.mem ((c : Thread nD τ).loc main_v5)
        = shapeCast S4096x2x16384 (whole (left m c) (right m c) (bias m c)) shapeCasts_S8192x16384_S4096x2x16384
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The result in terms of the arguments -/

/-- The three arguments, as arrays of extended reals. -/
abbrev input (c : Dev nD) : (⟨3, ![4096, 2, 4096]⟩ : Shape).Idx → EReal := m ((c : Thread nD τ).loc main_arg0)
abbrev weight (c : Dev nD) : (⟨2, ![16384, 4096]⟩ : Shape).Idx → EReal := m ((c : Thread nD τ).loc main_arg1)
abbrev biasArg (c : Dev nD) : (⟨1, ![16384]⟩ : Shape).Idx → EReal := m ((c : Thread nD τ).loc main_arg2)

/-- Row `2 s + b` of the flat input is the input's `(s, b)`. -/
theorem left_apply (c : Dev nD) (s : Fin 4096) (b : Fin 2) (x : Fin 4096) (r : Fin 8192) (hr : r.val = 2 * s.val + b.val) :
    left m c (ix2 r x) = input m c (ix3 s b x) :=
  (congrFun (found_left m c) (ix2 r x)).trans
    (shapeCast_apply (s := S4096x2x4096) (t := S8192x4096) (input m c) shapeCasts_S4096x2x4096_S8192x4096 (ix2 r x) (ix3 s b x) (by
      show (S4096x2x4096.rowMajor (ix3 s b x)).val = (S8192x4096.rowMajor (ix2 r x)).val
      rw [Shape.rowMajor_val_three, Shape.rowMajor_val_two]
      show (s.val * 2 + b.val) * 4096 + x.val = r.val * 4096 + x.val
      rw [hr]; omega))

theorem right_apply (c : Dev nD) (f : Fin 16384) (x : Fin 4096) : right m c (ix2 f x) = weight m c (ix2 f x) :=
  congrFun (found_right m c) (ix2 f x)

theorem bias_apply (c : Dev nD) (f : Fin 16384) : bias m c (ix2 (0 : Fin 1) f) = biasArg m c (ix1 f) :=
  (congrFun (found_bias m c) (ix2 (0 : Fin 1) f)).trans
    (shapeCast_apply (s := S16384) (t := S1x16384) (biasArg m c) shapeCasts_S16384_S1x16384 (ix2 (0 : Fin 1) f) (ix1 f) (by
      show (S16384.rowMajor (ix1 f)).val = (S1x16384.rowMajor (ix2 (0 : Fin 1) f)).val
      rw [Shape.rowMajor_val_one, Shape.rowMajor_val_two]
      show f.val = 0 * 16384 + f.val
      omega))

/-- The program's result at `(s, b, f)`: `bias f + ∑ₓ input s b x · weight f x`. -/
theorem result_apply (c : Dev nD) (s : Fin 4096) (b : Fin 2) (f : Fin 16384) :
    shapeCast S4096x2x16384 (whole (left m c) (right m c) (bias m c)) shapeCasts_S8192x16384_S4096x2x16384 (ix3 s b f)
      = biasArg m c (ix1 f) + ∑ x : Fin 4096, input m c (ix3 s b x) * weight m c (ix2 f x) := by
  have hr : 2 * s.val + b.val < 8192 := by have := s.isLt; have := b.isLt; omega
  refine (shapeCast_apply (s := S8192x16384) (t := S4096x2x16384) (whole (left m c) (right m c) (bias m c))
    shapeCasts_S8192x16384_S4096x2x16384 (ix3 s b f) (ix2 ⟨2 * s.val + b.val, hr⟩ f) (by
      rw [Shape.rowMajor_val_two, Shape.rowMajor_val_three]
      show (2 * s.val + b.val) * 16384 + f.val = (s.val * 2 + b.val) * 16384 + f.val
      omega)).trans ?_
  show bias m c (ix2 (0 : Fin 1) f) + ∑ x : Fin 4096, left m c (ix2 ⟨2 * s.val + b.val, hr⟩ x) * right m c (ix2 f x) = _
  rw [bias_apply]
  refine congrArg (_ + ·) (sum_congr rfl fun x _ => ?_)
  rw [left_apply m c s b x ⟨2 * s.val + b.val, hr⟩ rfl, right_apply]

end Cert.KernelIdeal.Result

end
-- ==== Proof.lean ====
/-
  A tiled matrix product with bias against `einsum('sbh,fh->sbf') + bias`, over the extended reals.

  The kernel flattens the input to 8192 rows (`2 s + b`), and on a grid of 8 row blocks × 8 column blocks × 4
  contraction blocks (the contraction innermost) keeps each 1024 × 2048 output block in its buffer across its four
  points: the first seeds it with the bias and adds `∑ₖ a p k · w q k` over its 1024 contraction indices, each
  later one adds its own partial product, the last writes the block back. So the result at `(s, b, f)` is
  `bias f + ∑ over the four blocks of the partial products`, which is `bias f + ∑ₕ x s b h · w f h`: the same
  4096 terms, grouped (Blocks). The reference computes `(∑ₕ x s b h · w f h) + bias f`. The two differ by the
  grouping of one sum and the order of one addition — laws of a commutative monoid, true of every extended real, so
  the precondition is never opened. The change of float format before the launch is the identity here.

  The three frames are the generated ones (the reference's: its generated run, the result dropped); the ideal pass
  rewrote nothing, so `preserves` is `True`.
-/
import proofs.«132026_j44856638439890_2_alg».proof.Defs
import proofs.«132026_j44856638439890_2_alg».proof.Proof.Gen.Kernel
import proofs.«132026_j44856638439890_2_alg».proof.Proof.Gen.Kernel.Frame
import proofs.«132026_j44856638439890_2_alg».proof.Proof.Gen.KernelIdeal
import proofs.«132026_j44856638439890_2_alg».proof.Proof.Gen.KernelIdeal.Frame
import proofs.«132026_j44856638439890_2_alg».proof.Proof.Gen.ReferenceIdeal
import proofs.«132026_j44856638439890_2_alg».proof.Proof.Gen.ReferenceIdeal.Run
import proofs.«132026_j44856638439890_2_alg».proof.Proof.Gen.ReferenceIdeal.Read
import proofs.«132026_j44856638439890_2_alg».proof.Proof.Gen.Pre_finite_inputs
import proofs.«132026_j44856638439890_2_alg».proof.Proof.RefValue
import proofs.«132026_j44856638439890_2_alg».proof.Proof.Result
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree both programs end at `bias f + ∑ₕ x s b h · w f h` at every `(s, b, f)`. -/
theorem algebraic : Cert.algebraic_KernelIdeal_ReferenceIdeal := by
  intro m ρ m' ρ' _ hagree
  refine ⟨fun c => shapeCast Cert.KernelIdeal.S4096x2x16384
      (Cert.KernelIdeal.Result.whole (Cert.KernelIdeal.Accumulate.left m c) (Cert.KernelIdeal.Accumulate.right m c)
        (Cert.KernelIdeal.Accumulate.bias m c)) Cert.KernelIdeal.Facts₀.shapeCasts_S8192x16384_S4096x2x16384,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v3_eq _ _ _).trans ?_
  funext i
  obtain ⟨s, b, f, rfl⟩ : ∃ (s : Fin 4096) (b : Fin 2) (f : Fin 16384), i = ix3 s b f := ⟨i 0, i 1, i 2, eq_ix3 i⟩
  rw [Cert.ReferenceIdeal.RefValue.result_apply]
  refine Eq.trans ?_ (Cert.KernelIdeal.Result.result_apply m c s b f).symm
  exact add_comm _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
